-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x128 : Shape := ⟨3, ![16, 1024, 128]⟩
abbrev S16x1024x1024 : Shape := ⟨3, ![16, 1024, 1024]⟩
abbrev S128x128 : Shape := ⟨2, ![128, 128]⟩
abbrev S_ : Shape := ⟨0, ![]⟩
abbrev S1024x1024 : Shape := ⟨2, ![1024, 1024]⟩
abbrev S1x1024x1024 : Shape := ⟨3, ![1, 1024, 1024]⟩
abbrev S16x1024 : Shape := ⟨2, ![16, 1024]⟩

class Facts : Prop where
  bcast_S_S16x1024x128 : S_.BroadcastsInDim S16x1024x128 (![] : Fin 0 → Fin S16x1024x128.rank)
  reducesTo_S16x1024x128_S_d0_1_2 : S16x1024x128.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S128x128 : S_.BroadcastsInDim S128x128 (![] : Fin 0 → Fin S128x128.rank)
  reducesTo_S128x128_S_d0_1 : S128x128.ReducesTo [0, 1] S_
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S16x1024_d2 : S16x1024x1024.ReducesTo [2] S16x1024
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_arg1 : FVec F S16x1024x1024 .f32) (main_v13 : IVec S_ 1) (main_v14 : IVec S1024x1024 32) (main_v15 : IVec S1024x1024 32) (main_v16 : IVec S1024x1024 32) : IVec S_ 1 :=
  let main_v17 : IVec S1024x1024 32 := addi main_v14 main_v16
  let main_v18 : IVec S1024x1024 1 := cmpi .eq main_v17 main_v15
  let main_v19 : FVec F S1024x1024 .f32 := uitofp .f32 main_v18
  let main_v20 : FVec F S1x1024x1024 .f32 := broadcastInDim S1x1024x1024 ![1, 2] bcast_S1024x1024_S1x1024x1024_1_2 main_v19
  let main_v21 : FVec F S16x1024x1024 .f32 := broadcastInDim S16x1024x1024 ![0, 1, 2] bcast_S1x1024x1024_S16x1024x1024_0_1_2 main_v20
  let main_v22 : FVec F S16x1024x1024 .f32 := addf main_arg1 main_v21
  let main_cst_5 : FVec F S_ .f32 := constant S_ .f32 0x00000000#32
  let main_v23 : FVec F S16x1024 .f32 := (fun x v => Host.reduceAdd x v reducesTo_S16x1024x1024_S16x1024_d2 h_S_) main_v22 main_cst_5
  let main_cst_6 : FVec F S_ .f32 := constant S_ .f32 0x00000000#32
  let main_v24 : FVec F S16x1024 .f32 := broadcastInDim S16x1024 ![] bcast_S_S16x1024 main_cst_6
  let main_v25 : IVec S16x1024 1 := cmpf .ogt main_v23 main_v24
  let main_c_7 : IVec S_ 1 := constantI S_ 1 1#1
  let main_v26 : IVec S_ 1 := (fun x v => Host.reduce IntOp.andi x v reducesTo_S16x1024_S_d0_1 h_S_) main_v25 main_c_7
  let main_v27 : IVec S_ 1 := andi main_v13 main_v26
  main_v27

def fn {F : FTy → Type} [FloatOps F] (main_arg0 : FVec F S16x1024x128 .f32) (main_arg1 : FVec F S16x1024x1024 .f32) (main_arg2 : FVec F S128x128 .f32) : IVec S_ 1 :=
  let main_v0 : FVec F S16x1024x128 .f32 := Host.absf main_arg0
  let main_cst : FVec F S_ .f32 := constant S_ .f32 0x7F800000#32
  let main_v1 : FVec F S16x1024x128 .f32 := broadcastInDim S16x1024x128 ![] bcast_S_S16x1024x128 main_cst
  let main_v2 : IVec S16x1024x128 1 := cmpf .olt main_v0 main_v1
  let main_c : IVec S_ 1 := constantI S_ 1 1#1
  let main_v3 : IVec S_ 1 := (fun x v => Host.reduce IntOp.andi x v reducesTo_S16x1024x128_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S1024x1024 32 := iotaInDim S1024x1024 32 0
  let main_v15 : IVec S1024x1024 32 := iotaInDim S1024x1024 32 1
  let main_c_4 : IVec S_ 32 := constantI S_ 32 0#32
  let main_v16 : IVec S1024x1024 32 := broadcastInDim S1024x1024 ![] bcast_S_S1024x1024 main_c_4
  fn_part1 (F := F) main_arg1 main_v13 main_v14 main_v15 main_v16
-- ==== Kernel.lean ====
abbrev S16x1024x128 : Shape := ⟨3, ![16, 1024, 128]⟩
abbrev S16x1024x1024 : Shape := ⟨3, ![16, 1024, 1024]⟩
abbrev S128x128 : Shape := ⟨2, ![128, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024x1 : Shape := ⟨2, ![1024, 1]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1024x128 : Shape := ⟨2, ![1024, 128]⟩

abbrev nBuf : Space → Nat
  | .hbm => 5
  | .vmem => 9
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S128x128, .bf16⟩
  | .hbm, ⟨4, _⟩ => ⟨S16x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S128x128, .bf16⟩
  | .local _ .vmem, ⟨5, _⟩ => ⟨S1x1024x128, .f32⟩
  | .local _ .vmem, ⟨6, _⟩ => ⟨S1x1024x128, .f32⟩
  | .local _ .vmem, ⟨7, _⟩ => ⟨S1024x1024, .bf16⟩
  | .local _ .vmem, ⟨8, _⟩ => ⟨S1024x1, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v0 : BitVec 32 := Scalar.muli c0_i32 c128_i32
  v0
def k0_off1 (c0_i32 : BitVec 32) : Fin 3 → Nat :=
  let c0 : Index := 0#32
  let c128_i32 : BitVec 32 := 128#32
  let v0 : BitVec 32 := Scalar.muli c0_i32 c128_i32
  let v1 : BitVec 32 := v0
  let v2 : Index := Scalar.indexCast v1
  let c0_0 : Index := 0#32
  ![0, v2.toNat, 0]
def k0_off2 (c0_i32 : BitVec 32) : Fin 2 → Nat :=
  let c128_i32 : BitVec 32 := 128#32
  let v0 : BitVec 32 := Scalar.muli c0_i32 c128_i32
  let v1 : BitVec 32 := v0
  let v7 : Index := Scalar.indexCast v1
  let c0_1 : Index := 0#32
  ![v7.toNat, 0]
def k0_off3 (c0_i32 : BitVec 32) : Fin 2 → Nat :=
  let c128_i32 : BitVec 32 := 128#32
  let v0 : BitVec 32 := Scalar.muli c0_i32 c128_i32
  let v1 : BitVec 32 := v0
  let v12 : Index := Scalar.indexCast v1
  let c0_2 : Index := 0#32
  ![v12.toNat, 0]
def k0_mult2 : BitVec 32 :=
  let c1_i32 : BitVec 32 := 1#32
  let c128_i32_3 : BitVec 32 := 128#32
  let v16 : BitVec 32 := Scalar.muli c1_i32 c128_i32_3
  v16
def k0_mult3 : BitVec 32 :=
  let c2_i32 : BitVec 32 := 2#32
  let c128_i32_9 : BitVec 32 := 128#32
  let v32 : BitVec 32 := Scalar.muli c2_i32 c128_i32_9
  v32
def k0_mult4 : BitVec 32 :=
  let c3_i32 : BitVec 32 := 3#32
  let c128_i32_15 : BitVec 32 := 128#32
  let v48 : BitVec 32 := Scalar.muli c3_i32 c128_i32_15
  v48
def k0_mult5 : BitVec 32 :=
  let c4_i32 : BitVec 32 := 4#32
  let c128_i32_21 : BitVec 32 := 128#32
  let v64 : BitVec 32 := Scalar.muli c4_i32 c128_i32_21
  v64
def k0_mult6 : BitVec 32 :=
  let c5_i32 : BitVec 32 := 5#32
  let c128_i32_27 : BitVec 32 := 128#32
  let v80 : BitVec 32 := Scalar.muli c5_i32 c128_i32_27
  v80
def k0_mult7 : BitVec 32 :=
  let c6_i32 : BitVec 32 := 6#32
  let c128_i32_33 : BitVec 32 := 128#32
  let v96 : BitVec 32 := Scalar.muli c6_i32 c128_i32_33
  v96
def k0_mult8 : BitVec 32 :=
  let c7_i32 : BitVec 32 := 7#32
  let c128_i32_39 : BitVec 32 := 128#32
  let v112 : BitVec 32 := Scalar.muli c7_i32 c128_i32_39
  v112
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  h_S1x128x1024 : 0 < S1x128x1024.numel
  shapeCasts_S1x128x1024_S128x1024 : S1x128x1024.ShapeCasts S128x1024
  reduces_S128x1024_S128 : S128x1024.Reduces [1] S128
  shapeCasts_S128_S128x1 : S128.ShapeCasts S128x1
  h_S128x1 : 0 < S128x1.numel
  shapeCasts_S128x1_S128x1 : S128x1.ShapeCasts S128x1
  h_S128x1024 : 0 < S128x1024.numel
  shapeCasts_S128x1024_S128x1024 : S128x1024.ShapeCasts S128x1024
  inb_S1024x1_S1024x1_0_0 : ∀ a, (![0, 0] : Fin 2 → Nat) a + S1024x1.size a ≤ S1024x1.size a
  h_S1024x1 : 0 < S1024x1.numel
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  broadcasts_S1024x1_S1024x128 : S1024x1.Broadcasts S1024x128
  inb_S1024x1024_S1024x1024_0_0 : ∀ a, (![0, 0] : Fin 2 → Nat) a + S1024x1024.size a ≤ S1024x1024.size a
  h_S1024x1024 : 0 < S1024x1024.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1024x128_S1x1024x128 : S1024x128.ShapeCasts S1x1024x128
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : 128 ∣ k0_mult1.toNat
  k0_off1_inb : ∀ (r : Fin 8), ∀ a, (k0_off1 (BitVec.ofNat 32 r.val)) a + S1x128x1024.size a ≤ S1x1024x1024.size a
  k0_off2_inb : ∀ (r : Fin 8), ∀ a, (k0_off2 (BitVec.ofNat 32 r.val)) a + S128x1.size a ≤ S1024x1.size a
  k0_off3_inb : ∀ (r : Fin 8), ∀ a, (k0_off3 (BitVec.ofNat 32 r.val)) a + S128x1024.size a ≤ S1024x1024.size a
  k0_off3_packedbf16 : ∀ (r : Fin 8), (Rect.unit (s := S1024x1024) (k0_off3 (BitVec.ofNat 32 r.val)) S128x1024.size (k0_off3_inb r)).PackedRows (EltTy.packing .bf16)
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S16x1024x128.size a
  hwx0_1 : ∀ i : grid0.Coords, EltTy.bits .f32 = 32 ∨ (Rect.block (s := S16x1024x128) S1x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S16x1024x128.size a
  hwx0_3 : ∀ i : grid0.Coords, EltTy.bits .f32 = 32 ∨ (Rect.block (s := S16x1024x128) S1x1024x128.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x128 : Shape := ⟨3, ![16, 1024, 128]⟩
abbrev S16x1024x1024 : Shape := ⟨3, ![16, 1024, 1024]⟩
abbrev S128x128 : Shape := ⟨2, ![128, 128]⟩
abbrev S1024x1024 : Shape := ⟨2, ![1024, 1024]⟩
abbrev S_ : Shape := ⟨0, ![]⟩
abbrev S1x1024x1024 : Shape := ⟨3, ![1, 1024, 1024]⟩
abbrev S16x1024 : Shape := ⟨2, ![16, 1024]⟩
abbrev S16x1024x1 : Shape := ⟨3, ![16, 1024, 1]⟩
abbrev S16x1x1024 : Shape := ⟨3, ![16, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S1024x1024, .i32⟩
  | .hbm, ⟨4, _⟩ => ⟨S1024x1024, .i32⟩
  | .hbm, ⟨5, _⟩ => ⟨S_, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S1024x1024, .f32⟩
  | .hbm, ⟨10, _⟩ => ⟨S1x1024x1024, .f32⟩
  | .hbm, ⟨11, _⟩ => ⟨S16x1024x1024, .f32⟩
  | .hbm, ⟨12, _⟩ => ⟨S16x1024x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1024x1, .f32⟩
  | .hbm, ⟨20, _⟩ => ⟨S16x1024x1024, .f32⟩
  | .hbm, ⟨21, _⟩ => ⟨S16x1024x1024, .f32⟩
  | .hbm, ⟨22, _⟩ => ⟨S16x1x1024, .f32⟩
  | .hbm, ⟨23, _⟩ => ⟨S16x1024x1024, .f32⟩
  | .hbm, ⟨24, _⟩ => ⟨S16x1024x1024, .f32⟩
  | .hbm, ⟨25, _⟩ => ⟨S16x1024x128, .f32⟩
  | .hbm, ⟨26, _⟩ => ⟨S16x1024x128, .f32⟩
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  dot_S16x1024x1024_S16x1024x128_S16x1024x128_2_1_1_2_0_0_wf : DotDims.WF S16x1024x1024 S16x1024x128 S16x1024x128 [2] [1] [1] [2] [0] [0]
  dot_S16x1024x128_S128x128_S16x1024x128_2_0_01_1_n_n_wf : DotDims.WF S16x1024x128 S128x128 S16x1024x128 [2] [0] [0, 1] [1] [] []

variable [Facts₀]

def dot_S16x1024x1024_S16x1024x128_S16x1024x128_2_1_1_2_0_0 : DotDims S16x1024x1024 S16x1024x128 S16x1024x128 where
  lhsContracting := [2]
  rhsContracting := [1]
  lhsNonContracting := [1]
  rhsNonContracting := [2]
  lhsBatch := [0]
  rhsBatch := [0]
  wf := dot_S16x1024x1024_S16x1024x128_S16x1024x128_2_1_1_2_0_0_wf
def dot_S16x1024x128_S128x128_S16x1024x128_2_0_01_1_n_n : DotDims S16x1024x128 S128x128 S16x1024x128 where
  lhsContracting := [2]
  rhsContracting := [0]
  lhsNonContracting := [0, 1]
  rhsNonContracting := [1]
  lhsBatch := []
  rhsBatch := []
  wf := dot_S16x1024x128_S128x128_S16x1024x128_2_0_01_1_n_n_wf

class Facts : Prop extends Facts₀ where

variable [Facts]
-- ==== Proof.Algebra.lean ====
/-
  The mathematics of the certificate, over abstract finite index types and with no program in sight.

  A graph-convolution layer normalizes the adjacency matrix with self loops, `Â = A + I`, by its degrees
  `d n = ∑ j, Â n j`: `out = (D^(-1/2) Â D^(-1/2) X) W`. One side computes the degree as `(∑ j, A n j) + 1`, takes
  `r = rsqrt d`, and aggregates as `r n * ((∑ m, A n m * (r m * X m f)) + r n * X n f)`, never forming the normalized
  matrix; the other forms `((A n m + I n m) * s n) * s m` with `s = 1 / sqrt d` and contracts it with `X`.
  Over the reals, with every degree positive, the two are one number: the identity's row sum is `1`, `rsqrt d` and
  `1 / sqrt d` are both `(√d)⁻¹`, and a factor that does not depend on the summation index moves across the sum.
  On the extended reals the last step needs every entry finite, and the first two need `d > 0`.
-/
import Idealize.ShloMosaic.PureOps.Ideal
import Idealize.ShloMosaic.PureOps.Ideal.Laws

noncomputable section

namespace Cert.Gcn

open Idealize.ShloMosaic

/-! ## Constants and comparisons read back -/

/-- The pattern of `1.0` denotes `1`. -/
theorem ofBits_one : Ideal.ofBits .f32 0x3F800000#32 = 1 := by
  simp [Ideal.ofBits, Ideal.ieee, -EReal.coe_mul]; norm_num

/-- The pattern of `+inf` denotes `⊤`. -/
theorem ofBits_inf : Ideal.ofBits .f32 0x7F800000#32 = ⊤ := by
  simp [Ideal.ofBits, Ideal.ieee]

/-- A one-bit word made from a Boolean is `1` only for `true`. -/
theorem eq_true_of_ofBool {b : Bool} (h : BitVec.ofBool b = 1#1) : b = true := by
  cases b
  · exact absurd h (by decide)
  · rfl

/-- An extended real whose absolute value is below `+inf` is a real number. -/
theorem real_of_abs_lt (x : EReal) (h : Ideal.cmp .olt (max x (-x)) (Ideal.ofBits .f32 0x7F800000#32) = 1#1) :
    ∃ r : ℝ, x = (r : EReal) := by
  rw [ofBits_inf] at h
  have h2 : BitVec.ofBool (decide (max x (-x) < ⊤)) = 1#1 := h
  have h' : max x (-x) < ⊤ := of_decide_eq_true (eq_true_of_ofBool h2)
  induction x using EReal.rec with
  | bot => simp at h'
  | coe r => exact ⟨r, rfl⟩
  | top => simp at h'

/-- A comparison `d > 0.0` that came out true says `0 < d`. -/
theorem pos_of_cmp_gt (d : EReal) (h : Ideal.cmp .ogt d (Ideal.ofBits .f32 0x00000000#32) = 1#1) : 0 < d := by
  rw [Ideal.ofBits_zero_f32] at h
  have h2 : BitVec.ofBool (decide (0 < d)) = 1#1 := h
  exact of_decide_eq_true (eq_true_of_ofBool h2)

/-- The identity matrix as `jnp.eye` spells it — an `i1` comparison of a row counter with a column counter, converted
    to a float — is `1` on the diagonal and `0` off it (the counters are below `2^32`, so equal words are equal numbers). -/
theorem eye_word (n m : ℕ) (hn : n < 1024) (hm : m < 1024) :
    (((IntOp.cmpi .eq (IntOp.addi (BitVec.ofNat 32 n) 0#32) (BitVec.ofNat 32 m)).toNat : ℝ) : EReal)
      = if n = m then 1 else 0 := by
  have e : (BitVec.ofNat 32 n = BitVec.ofNat 32 m) ↔ n = m := by
    constructor
    · intro h
      have := congrArg BitVec.toNat h
      simp only [BitVec.toNat_ofNat] at this
      omega
    · intro h; rw [h]
  by_cases h : n = m
  · subst h; simp [IntOp.cmpi, IntOp.addi]
  · have hne : ¬ BitVec.ofNat 32 n = BitVec.ofNat 32 m := fun hh => h (e.mp hh)
    simp [IntOp.cmpi, IntOp.addi, h, hne]

/-! ## Sums of reals inside the extended reals -/

theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-! ## The two aggregations -/

section Agg

variable {ι φ : Type*} [Fintype ι] [DecidableEq ι]

/-- The identity matrix. -/
def eye (n m : ι) : EReal := if n = m then 1 else 0

/-- The degree as the sum of a row of `A`, plus one. -/
def degK (A : ι → ι → EReal) (n : ι) : EReal := (∑ j, A n j) + 1

/-- Its reciprocal square root. -/
def dinvK (A : ι → ι → EReal) (n : ι) : EReal := Ideal.rsqrt (degK A n)

/-- The aggregation that never forms the normalized matrix: `r n * (A (r X) + r X)`. -/
def aggK (A : ι → ι → EReal) (X : ι → φ → EReal) (n : ι) (f : φ) : EReal :=
  dinvK A n * ((∑ m, A n m * (dinvK A m * X m f)) + dinvK A n * X n f)

/-- The degree as the row sum of `A + I`, summed from `0`. -/
def degR (A : ι → ι → EReal) (n : ι) : EReal := 0 + ∑ j, (A n j + eye n j)

/-- One over its square root. -/
def disR (A : ι → ι → EReal) (n : ι) : EReal := Ideal.div 1 (Ideal.sqrt (degR A n))

/-- The aggregation through the normalized matrix `((A + I) * s n) * s m`. -/
def aggR (A : ι → ι → EReal) (X : ι → φ → EReal) (n : ι) (f : φ) : EReal :=
  ∑ m, (((A n m + eye n m) * disR A n) * disR A m) * X m f

/-- Over the reals: the diagonal term of `A + I` contributes `r n * r n * x n`, and `r n` factors out of the rest. -/
theorem agg_real (a : ι → ι → ℝ) (x r : ι → ℝ) (n : ι) :
    r n * ((∑ m, a n m * (r m * x m)) + r n * x n)
      = ∑ m, (((a n m + (if n = m then 1 else 0)) * r n) * r m) * x m := by
  have e : ∀ m, (((a n m + (if n = m then (1 : ℝ) else 0)) * r n) * r m) * x m
      = r n * (a n m * (r m * x m)) + (if n = m then r n * (r m * x m) else 0) := by
    intro m; split_ifs <;> ring
  simp only [e, Finset.sum_add_distrib, Finset.sum_ite_eq, Finset.mem_univ, if_true, ← Finset.mul_sum]
  ring

variable (A : ι → ι → EReal) (a : ι → ι → ℝ) (hA : ∀ n m, A n m = (a n m : EReal))

include hA in
/-- With real entries both degrees are the real `(∑ j, a n j) + 1`. -/
theorem degK_coe (n : ι) : degK A n = (((∑ j, a n j) + 1 : ℝ) : EReal) := by
  unfold degK
  simp only [hA, EReal.coe_add, coe_sum, EReal.coe_one]

include hA in
theorem degR_coe (n : ι) : degR A n = (((∑ j, a n j) + 1 : ℝ) : EReal) := by
  unfold degR eye
  have e : ∀ j, (A n j + (if n = j then (1 : EReal) else 0)) = ((a n j + (if n = j then (1 : ℝ) else 0) : ℝ) : EReal) := by
    intro j; rw [hA]; split_ifs <;> simp
  simp only [e, ← coe_sum, zero_add, Finset.sum_add_distrib, Finset.sum_ite_eq, Finset.mem_univ, if_true]

include hA in
/-- Where the degree is positive, `rsqrt d` is the real `(√d)⁻¹` … -/
theorem dinvK_coe (n : ι) (hd : 0 < (∑ j, a n j) + 1) : dinvK A n = (((Real.sqrt ((∑ j, a n j) + 1))⁻¹ : ℝ) : EReal) := by
  unfold dinvK
  rw [degK_coe A a hA, Ideal.rsqrt_coe, if_neg (not_lt.2 hd.le), if_neg hd.ne']

include hA in
/-- … and so is `1 / sqrt d`. -/
theorem disR_coe (n : ι) (hd : 0 < (∑ j, a n j) + 1) : disR A n = (((Real.sqrt ((∑ j, a n j) + 1))⁻¹ : ℝ) : EReal) := by
  unfold disR
  rw [degR_coe A a hA, Ideal.sqrt_coe, if_neg (not_lt.2 hd.le),
    Ideal.div_coe (Real.sqrt_pos.2 hd).ne', one_mul, one_div]

include hA in
/-- THE LAW: with finite entries and positive degrees the two aggregations agree. -/
theorem aggK_eq_aggR (X : ι → φ → EReal) (x : ι → φ → ℝ) (hX : ∀ m f, X m f = (x m f : EReal))
    (hdeg : ∀ n, 0 < degR A n) (n : ι) (f : φ) : aggK A X n f = aggR A X n f := by
  have hd : ∀ n, 0 < (∑ j, a n j) + 1 := fun n => by
    have := hdeg n; rw [degR_coe A a hA] at this; exact_mod_cast this
  unfold aggK aggR
  simp only [fun n => dinvK_coe A a hA n (hd n), fun n => disR_coe A a hA n (hd n), hA, hX]
  have e : ∀ m, (eye n m : EReal) = ((if n = m then (1 : ℝ) else 0 : ℝ) : EReal) := by
    intro m; unfold eye; split_ifs <;> simp
  simp only [e, ← EReal.coe_mul, ← EReal.coe_add, ← coe_sum]
  exact congrArg _ (agg_real a (fun m => x m f) (fun m => (Real.sqrt ((∑ j, a m j) + 1))⁻¹) n)

end Agg

end Cert.Gcn

end
-- ==== Proof.Spec.lean ====
/-
  The layer as one function of the three argument arrays, index by index, in both arrangements.

  `X : f32[16, 1024, 128]` holds the node features of sixteen graphs, `A : f32[16, 1024, 1024]` their adjacency
  matrices, `W : f32[128, 128]` the weights. Graph `b`'s output row `n` is its aggregated feature row (Algebra.lean's
  `aggK` or `aggR` of graph `b`'s slices) contracted with `W`. The two arrangements differ only in the aggregation, so
  they agree wherever Algebra.lean's law applies: finite entries of `A` and `X` and positive degrees — `W` may be anything.
-/
import proofs.«170639_j77713138253972_2_alg».proof.Proof.Algebra
import Idealize.ShloMosaic.Lib.ValueIdx

noncomputable section

namespace Cert.Gcn

open Idealize.ShloMosaic Idealize.ShloMosaic.ValueIdx

abbrev SA : Shape := ⟨3, ![16, 1024, 1024]⟩
abbrev SX : Shape := ⟨3, ![16, 1024, 128]⟩
abbrev SW : Shape := ⟨2, ![128, 128]⟩

/-- Graph `b`'s adjacency matrix. -/
def adj (A : SA.Idx → EReal) (b : Fin 16) : Fin 1024 → Fin 1024 → EReal := fun n m => A (ix3 b n m)

/-- Graph `b`'s node features. -/
def feat (X : SX.Idx → EReal) (b : Fin 16) : Fin 1024 → Fin 128 → EReal := fun m f => X (ix3 b m f)

/-- The output entry through the aggregation that scales rows before and after `A @ ·`. -/
def outK (X : SX.Idx → EReal) (A : SA.Idx → EReal) (W : SW.Idx → EReal) (b : Fin 16) (n : Fin 1024) (g : Fin 128) : EReal :=
  ∑ f : Fin 128, aggK (adj A b) (feat X b) n f * W (ix2 f g)

/-- The output entry through the normalized matrix. -/
def outR (X : SX.Idx → EReal) (A : SA.Idx → EReal) (W : SW.Idx → EReal) (b : Fin 16) (n : Fin 1024) (g : Fin 128) : EReal :=
  ∑ f : Fin 128, aggR (adj A b) (feat X b) n f * W (ix2 f g)

/-- The layer's output array. -/
def layer (X : SX.Idx → EReal) (A : SA.Idx → EReal) (W : SW.Idx → EReal) : SX.Idx → EReal :=
  fun i => outR X A W (i 0) (i 1) (i 2)

/-- With finite `A` and `X` and positive degrees the two arrangements give the same entry. -/
theorem outK_eq_outR (X : SX.Idx → EReal) (A : SA.Idx → EReal) (W : SW.Idx → EReal)
    (hX : ∀ i, ∃ r : ℝ, X i = (r : EReal)) (hA : ∀ i, ∃ r : ℝ, A i = (r : EReal))
    (hdeg : ∀ b n, 0 < degR (adj A b) n) (b : Fin 16) (n : Fin 1024) (g : Fin 128) :
    outK X A W b n g = outR X A W b n g := by
  unfold outK outR
  refine Finset.sum_congr rfl fun f _ => ?_
  choose x hx using hX
  choose a ha using hA
  rw [aggK_eq_aggR (adj A b) (fun n m => a (ix3 b n m)) (fun n m => ha _) (feat X b) (fun m f => x (ix3 b m f))
    (fun m f => hx _) (hdeg b) n f]

end Cert.Gcn

end
-- ==== Proof.RefRead.lean ====
/-
  The reference's result read at an index: it is the layer of Spec.lean through the normalized matrix.

  The reference builds the identity matrix from two counters, adds it to `A`, sums the rows from `0`, takes
  `1 / sqrt`, scales rows and columns, and contracts with `X` and then `W`. Each stage read at an entry gives, in
  order: `A + I`, the degree, its inverse square root, the normalized entry, the aggregated features, the output.
-/
import proofs.«170639_j77713138253972_2_alg».proof.Proof.Spec
import proofs.«170639_j77713138253972_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx Cert.Gcn

variable (X : FVec Ideal S16x1024x128 .f32) (A : FVec Ideal S16x1024x1024 .f32) (W : FVec Ideal S128x128 .f32)

/-- `A + I` at `(b, n, m)`. -/
theorem v8_apply (b : Fin 16) (n m : Fin 1024) :
    val_main_v8 (F := Ideal) A (ix3 b n m) = A (ix3 b n m) + eye n m := by
  rw [val_main_v8_apply, val_main_v7_apply, val_main_v6_apply, val_main_v5_apply, val_main_v4_apply, val_main_v3_apply,
    val_main_v2_apply, val_main_v0_apply, val_main_v1_apply, val_main_c_apply]
  show A (ix3 b n m) + (((IntOp.cmpi .eq (IntOp.addi (BitVec.ofNat 32 n.val) 0#32) (BitVec.ofNat 32 m.val)).toNat : ℝ) : EReal) = _
  rw [eye_word n.val m.val n.isLt m.isLt]
  unfold eye
  by_cases h : n = m
  · rw [if_pos h, if_pos (congrArg Fin.val h)]
  · rw [if_neg h, if_neg (fun hh => h (Fin.ext hh))]

/-- The degree of node `n` of graph `b`. -/
theorem v9_apply (b : Fin 16) (n : Fin 1024) :
    val_main_v9 (F := Ideal) A (ix2 b n) = degR (adj A b) n := by
  rw [val_main_v9_apply, val_main_cst_apply]
  show Ideal.ofBits .f32 0x00000000#32 + _ = _
  rw [Ideal.ofBits_zero_f32]
  unfold degR adj
  refine congrArg (0 + ·) (Finset.sum_congr rfl fun k _ => ?_)
  have e : idx_main_v9 (ix2 b n) k = ix3 b n k := funext fun a => Fin.ext (by
    match a with | ⟨0, _⟩ => rfl | ⟨1, _⟩ => rfl | ⟨2, _⟩ => rfl)
  rw [e, v8_apply]

/-- Its inverse square root. -/
theorem v12_apply (b : Fin 16) (n : Fin 1024) :
    val_main_v12 (F := Ideal) A (ix2 b n) = disR (adj A b) n := by
  rw [val_main_v12_apply, val_main_v11_apply, val_main_cst_0_apply, val_main_v10_apply, v9_apply]
  show Ideal.div (Ideal.ofBits .f32 0x3F800000#32) (Ideal.sqrt (degR (adj A b) n)) = _
  rw [ofBits_one]; rfl

/-- The normalized matrix at `(b, n, m)`. -/
theorem v18_apply (b : Fin 16) (n m : Fin 1024) :
    val_main_v18 (F := Ideal) A (ix3 b n m) = ((A (ix3 b n m) + eye n m) * disR (adj A b) n) * disR (adj A b) m := by
  have e14 : idx_main_v13 (idx_main_v14 (ix3 b n m)) = ix2 b n := funext fun a => Fin.ext (by
    match a with | ⟨0, _⟩ => rfl | ⟨1, _⟩ => rfl)
  have e17 : idx_main_v16 (idx_main_v17 (ix3 b n m)) = ix2 b m := funext fun a => Fin.ext (by
    match a with | ⟨0, _⟩ => rfl | ⟨1, _⟩ => rfl)
  rw [val_main_v18_apply, val_main_v15_apply, val_main_v14_apply, val_main_v13_apply, val_main_v17_apply,
    val_main_v16_apply, e14, e17, v12_apply, v12_apply, v8_apply]
  rfl

/-- The aggregated features. -/
theorem v19_apply (b : Fin 16) (n : Fin 1024) (f : Fin 128) :
    val_main_v19 (F := Ideal) X A (ix3 b n f) = aggR (adj A b) (feat X b) n f := by
  rw [val_main_v19_apply]
  unfold aggR
  refine Finset.sum_congr rfl fun m _ => ?_
  have el : lidx_main_v19 (ix3 b n f) m = ix3 b n m := funext fun a => Fin.ext (by
    match a with | ⟨0, _⟩ => rfl | ⟨1, _⟩ => rfl | ⟨2, _⟩ => rfl)
  have er : ridx_main_v19 (ix3 b n f) m = ix3 b m f := funext fun a => Fin.ext (by
    match a with | ⟨0, _⟩ => rfl | ⟨1, _⟩ => rfl | ⟨2, _⟩ => rfl)
  rw [el, er, v18_apply]
  rfl

/-- THE REFERENCE'S RESULT at `(b, n, g)`. -/
theorem v20_apply (b : Fin 16) (n : Fin 1024) (g : Fin 128) :
    val_main_v20 (F := Ideal) X A W (ix3 b n g) = outR X A W b n g := by
  rw [val_main_v20_apply]
  unfold outR
  refine Finset.sum_congr rfl fun f _ => ?_
  have el : lidx_main_v20 (ix3 b n g) f = ix3 b n f := funext fun a => Fin.ext (by
    match a with | ⟨0, _⟩ => rfl | ⟨1, _⟩ => rfl | ⟨2, _⟩ => rfl)
  have er : ridx_main_v20 (ix3 b n g) f = ix2 f g := funext fun a => Fin.ext (by
    match a with | ⟨0, _⟩ => rfl | ⟨1, _⟩ => rfl)
  rw [el, er, v19_apply]

/-- So the reference's result array is the layer. -/
theorem result_eq : val_main_v20 (F := Ideal) X A W = layer X A W := by
  funext i
  obtain ⟨b, n, g, rfl⟩ : ∃ (b : Fin 16) (n : Fin 1024) (g : Fin 128), i = ix3 b n g := ⟨i 0, i 1, i 2, eq_ix3 i⟩
  rw [v20_apply]
  rfl

end Cert.ReferenceIdeal.RefValue

end
-- ==== Proof.PreRead.lean ====
/-
  What the precondition says of the arrays: every entry of `X` and of `A` is a real number, and every degree
  `∑ j, (A n j + I n j)` — the reference's own, summed as the reference sums it — is positive.

  The precondition is a conjunction of four `all`s; each `all` that is true is true at every index; an entry whose
  absolute value is below `+inf` is real, and a degree that compares above `0.0` is positive.
-/
import proofs.«170639_j77713138253972_2_alg».proof.Proof.RefRead
import proofs.«170639_j77713138253972_2_alg».proof.Proof.Gen.Pre_finite_inputs
import Idealize.ShloMosaic.Lib.ReduceAll

noncomputable section

namespace Cert.Pre_finite_inputs.PreValue

open Cert.Pre_finite_inputs Cert.Pre_finite_inputs.Gen Idealize.ShloMosaic Idealize.ShloMosaic.ValueIdx Cert.Gcn

instance : Subsingleton S_.Idx := ⟨fun a b => funext fun d => d.elim0⟩

theorem decode (X : FVec Ideal S16x1024x128 .f32) (A : FVec Ideal S16x1024x1024 .f32) (W : FVec Ideal S128x128 .f32)
    (h : Cert.Pre_finite_inputs.fn (F := Ideal) X A W = fun _ => 1#1) :
    (∀ i, ∃ r : ℝ, X i = (r : EReal)) ∧ (∀ i, ∃ r : ℝ, A i = (r : EReal)) ∧ (∀ b n, 0 < degR (adj A b) n) := by
  have h0 := congrFun h ix0
  unfold Cert.Pre_finite_inputs.fn Cert.Pre_finite_inputs.fn_part1 at h0
  dsimp only at h0
  obtain ⟨h13, h26⟩ := IntOp.andi_eq_one.1 h0
  obtain ⟨h8, h12⟩ := IntOp.andi_eq_one.1 h13
  obtain ⟨h3, h7⟩ := IntOp.andi_eq_one.1 h8
  refine ⟨fun i => ?_, fun i => ?_, fun b n => ?_⟩
  · exact real_of_abs_lt _ (Host.reduce_andi_all _ _ _ _ _ h3 i)
  · exact real_of_abs_lt _ (Host.reduce_andi_all _ _ _ _ _ h7 i)
  · have hd : 0 < Cert.ReferenceIdeal.Read.val_main_v9 (F := Ideal) A (ix2 b n) :=
      pos_of_cmp_gt _ (Host.reduce_andi_all _ _ _ _ _ h26 (ix2 b n))
    rwa [Cert.ReferenceIdeal.RefValue.v9_apply] at hd

end Cert.Pre_finite_inputs.PreValue

end
-- ==== Proof.Payload.lean ====
/-
  The kernel body's arithmetic read at an index (at the ideal values).

  Per row tile of 128 rows the body stores the tile's row sums into a column buffer and a copy of the tile (a change of
  format: the identity here) into a square buffer; then, from the whole buffers, `r = rsqrt (rowsum + 1)`,
  `Y = r * X`, `r * (A Y + Y)`, and the product of that with `W`. Read at an entry, each matrix product into a zero
  accumulator is a plain sum over the contracted index, a row sum is a sum over the columns, and a column broadcast
  reads its row's entry.
-/
import proofs.«170639_j77713138253972_2_alg».proof.Proof.Spec
import proofs.«170639_j77713138253972_2_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Gcn

/-- The row sums of a 128-row tile, kept as a column: entry `(p, 0)` is the sum over the tile's row `p`. -/
theorem rowsum_apply (v : FVec Ideal S1x128x1024 .f32) (p : Fin 128) (q : Fin 1) :
    shapeCast S128x1 (shapeCast S128x1 (multiReduction .add [1] S128 (shapeCast S128x1024 v shapeCasts_S1x128x1024_S128x1024)
        0x00000000#32 reduces_S128x1024_S128 (.inl rfl) rfl) shapeCasts_S128_S128x1) shapeCasts_S128x1_S128x1 (ix2 p q)
      = ∑ j : Fin 1024, v (ix3 (0 : Fin 1) p j) := by
  rw [shapeCast_self]
  refine (shapeCast_apply _ shapeCasts_S128_S128x1 (ix2 p q) (ix1 p) ?_).trans ?_
  · rw [Shape.rowMajor_val_one, Shape.rowMajor_val_two]
    have hq : q.val = 0 := by omega
    show p.val = p.val * 1 + q.val
    omega
  refine (Ideal.multiReduction_add_single _ 0x00000000#32 reduces_S128x1024_S128 (.inl rfl) rfl (ix1 p)).trans ?_
  refine Finset.sum_congr rfl fun j _ => ?_
  exact shapeCast_1ab_ab_apply v shapeCasts_S1x128x1024_S128x1024 p j

/-- The tile's copy in the narrower format: entry `(p, j)` is the tile's. -/
theorem copy_apply (v : FVec Ideal S1x128x1024 .f32) (p : Fin 128) (j : Fin 1024) :
    shapeCast S128x1024 (truncf .bf16 (shapeCast S128x1024 v shapeCasts_S1x128x1024_S128x1024) bitsLt_bf16_f32)
        shapeCasts_S128x1024_S128x1024 (ix2 p j)
      = v (ix3 (0 : Fin 1) p j) := by
  rw [shapeCast_self]
  exact shapeCast_1ab_ab_apply v shapeCasts_S1x128x1024_S128x1024 p j

/-! ## The sixteen tile stores: each row tile's sums and copy, read at an entry -/

theorem sums0_apply (v : FVec Ideal S1x128x1024 .f32) (p : Fin 128) (q : Fin 1) :
    (k0_pay3 (F := Ideal) v) (ix2 p q) = ∑ j : Fin 1024, v (ix3 (0 : Fin 1) p j) := by
  unfold k0_pay3 k0_pay2
  exact rowsum_apply v p q
theorem copy0_apply (v : FVec Ideal S1x128x1024 .f32) (p : Fin 128) (j : Fin 1024) :
    (k0_pay4 (F := Ideal) v) (ix2 p j) = v (ix3 (0 : Fin 1) p j) := by
  unfold k0_pay4 k0_pay2
  exact copy_apply v p j

theorem sums1_apply (v : FVec Ideal S1x128x1024 .f32) (p : Fin 128) (q : Fin 1) :
    (k0_pay6 (F := Ideal) v) (ix2 p q) = ∑ j : Fin 1024, v (ix3 (0 : Fin 1) p j) := by
  unfold k0_pay6 k0_pay5
  exact rowsum_apply v p q
theorem copy1_apply (v : FVec Ideal S1x128x1024 .f32) (p : Fin 128) (j : Fin 1024) :
    (k0_pay7 (F := Ideal) v) (ix2 p j) = v (ix3 (0 : Fin 1) p j) := by
  unfold k0_pay7 k0_pay5
  exact copy_apply v p j

theorem sums2_apply (v : FVec Ideal S1x128x1024 .f32) (p : Fin 128) (q : Fin 1) :
    (k0_pay9 (F := Ideal) (k0_pay8 v)) (ix2 p q) = ∑ j : Fin 1024, v (ix3 (0 : Fin 1) p j) := by
  unfold k0_pay9 k0_pay8
  exact rowsum_apply v p q
theorem copy2_apply (v : FVec Ideal S1x128x1024 .f32) (p : Fin 128) (j : Fin 1024) :
    (k0_pay10 (F := Ideal) (k0_pay8 v)) (ix2 p j) = v (ix3 (0 : Fin 1) p j) := by
  unfold k0_pay10 k0_pay8
  exact copy_apply v p j

theorem sums3_apply (v : FVec Ideal S1x128x1024 .f32) (p : Fin 128) (q : Fin 1) :
    (k0_pay12 (F := Ideal) v) (ix2 p q) = ∑ j : Fin 1024, v (ix3 (0 : Fin 1) p j) := by
  unfold k0_pay12 k0_pay11
  exact rowsum_apply v p q
theorem copy3_apply (v : FVec Ideal S1x128x1024 .f32) (p : Fin 128) (j : Fin 1024) :
    (k0_pay13 (F := Ideal) v) (ix2 p j) = v (ix3 (0 : Fin 1) p j) := by
  unfold k0_pay13 k0_pay11
  exact copy_apply v p j

theorem sums4_apply (v : FVec Ideal S1x128x1024 .f32) (p : Fin 128) (q : Fin 1) :
    (k0_pay15 (F := Ideal) v) (ix2 p q) = ∑ j : Fin 1024, v (ix3 (0 : Fin 1) p j) := by
  unfold k0_pay15 k0_pay14
  exact rowsum_apply v p q
theorem copy4_apply (v : FVec Ideal S1x128x1024 .f32) (p : Fin 128) (j : Fin 1024) :
    (k0_pay17 (F := Ideal) (k0_pay16 v)) (ix2 p j) = v (ix3 (0 : Fin 1) p j) := by
  unfold k0_pay17 k0_pay16 k0_pay14
  exact copy_apply v p j

theorem sums5_apply (v : FVec Ideal S1x128x1024 .f32) (p : Fin 128) (q : Fin 1) :
    (k0_pay19 (F := Ideal) v) (ix2 p q) = ∑ j : Fin 1024, v (ix3 (0 : Fin 1) p j) := by
  unfold k0_pay19 k0_pay18
  exact rowsum_apply v p q
theorem copy5_apply (v : FVec Ideal S1x128x1024 .f32) (p : Fin 128) (j : Fin 1024) :
    (k0_pay20 (F := Ideal) v) (ix2 p j) = v (ix3 (0 : Fin 1) p j) := by
  unfold k0_pay20 k0_pay18
  exact copy_apply v p j

theorem sums6_apply (v : FVec Ideal S1x128x1024 .f32) (p : Fin 128) (q : Fin 1) :
    (k0_pay22 (F := Ideal) v) (ix2 p q) = ∑ j : Fin 1024, v (ix3 (0 : Fin 1) p j) := by
  unfold k0_pay22 k0_pay21
  exact rowsum_apply v p q
theorem copy6_apply (v : FVec Ideal S1x128x1024 .f32) (p : Fin 128) (j : Fin 1024) :
    (k0_pay23 (F := Ideal) v) (ix2 p j) = v (ix3 (0 : Fin 1) p j) := by
  unfold k0_pay23 k0_pay21
  exact copy_apply v p j

theorem sums7_apply (v : FVec Ideal S1x128x1024 .f32) (p : Fin 128) (q : Fin 1) :
    (k0_pay25 (F := Ideal) v) (ix2 p q) = ∑ j : Fin 1024, v (ix3 (0 : Fin 1) p j) := by
  unfold k0_pay25 k0_pay24
  exact rowsum_apply v p q
theorem copy7_apply (v : FVec Ideal S1x128x1024 .f32) (p : Fin 128) (j : Fin 1024) :
    (k0_pay26 (F := Ideal) v) (ix2 p j) = v (ix3 (0 : Fin 1) p j) := by
  unfold k0_pay26 k0_pay24
  exact copy_apply v p j

/-! ## The two matrix products -/

theorem lhsA_0 (i : S1024x128.Idx) (q : dot_S1024x1024_S1024x128_S1024x128_1_0_0_1_n_n.contr.Idx) : (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhsA_1 (i : S1024x128.Idx) (q : dot_S1024x1024_S1024x128_S1024x128_1_0_0_1_n_n.contr.Idx) : (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhsA_0 (i : S1024x128.Idx) (q : dot_S1024x1024_S1024x128_S1024x128_1_0_0_1_n_n.contr.Idx) : (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhsA_1 (i : S1024x128.Idx) (q : dot_S1024x1024_S1024x128_S1024x128_1_0_0_1_n_n.contr.Idx) : (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The [1024, 1024] × [1024, 128] product into zeros, at `(n, f)`: the sum over the contracted node index. -/
theorem matmulA_apply (l : FVec Ideal S1024x1024 .bf16) (r : FVec Ideal S1024x128 .bf16) (n : Fin 1024) (f : Fin 128) :
    matmul dot_S1024x1024_S1024x128_S1024x128_1_0_0_1_n_n none l r (constant (F := Ideal) S1024x128 .f32 0x00000000#32) (ix2 n f)
      = ∑ m : Fin 1024, l (ix2 n m) * r (ix2 m f) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 n f) ((ValueIdx.contrEquiv1 dot_S1024x1024_S1024x128_S1024x128_1_0_0_1_n_n 1024 rfl rfl).symm k) = ix2 n k := funext fun a => Fin.ext (by
    match a with
    | ⟨0, _⟩ => exact lhsA_0 _ _
    | ⟨1, _⟩ => exact (lhsA_1 _ _).trans hk)
  have er : dot_S1024x1024_S1024x128_S1024x128_1_0_0_1_n_n.rhsIdx (ix2 n f) ((ValueIdx.contrEquiv1 dot_S1024x1024_S1024x128_S1024x128_1_0_0_1_n_n 1024 rfl rfl).symm k) = ix2 k f := funext fun a => Fin.ext (by
    match a with
    | ⟨0, _⟩ => exact (rhsA_0 _ _).trans hk
    | ⟨1, _⟩ => exact rhsA_1 _ _)
  rw [el, er]

theorem lhsW_0 (i : S1024x128.Idx) (q : dot_S1024x128_S128x128_S1024x128_1_0_0_1_n_n.contr.Idx) : (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhsW_1 (i : S1024x128.Idx) (q : dot_S1024x128_S128x128_S1024x128_1_0_0_1_n_n.contr.Idx) : (dot_S1024x128_S128x128_S1024x128_1_0_0_1_n_n.lhsIdx i q 1).val = (q ⟨0, by decide⟩).val :=
  dot_S1024x128_S128x128_S1024x128_1_0_0_1_n_n.lhsIdx_val_of_single rfl i q
theorem rhsW_0 (i : S1024x128.Idx) (q : dot_S1024x128_S128x128_S1024x128_1_0_0_1_n_n.contr.Idx) : (dot_S1024x128_S128x128_S1024x128_1_0_0_1_n_n.rhsIdx i q 0).val = (q ⟨0, by decide⟩).val :=
  dot_S1024x128_S128x128_S1024x128_1_0_0_1_n_n.rhsIdx_val_of_single rfl i q
theorem rhsW_1 (i : S1024x128.Idx) (q : dot_S1024x128_S128x128_S1024x128_1_0_0_1_n_n.contr.Idx) : (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The [1024, 128] × [128, 128] product into zeros, at `(n, g)`: the sum over the contracted feature index. -/
theorem matmulW_apply (l : FVec Ideal S1024x128 .bf16) (r : FVec Ideal S128x128 .bf16) (n : Fin 1024) (g : Fin 128) :
    matmul dot_S1024x128_S128x128_S1024x128_1_0_0_1_n_n none l r (constant (F := Ideal) S1024x128 .f32 0x00000000#32) (ix2 n g)
      = ∑ f : Fin 128, l (ix2 n f) * r (ix2 f g) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 n g) ((ValueIdx.contrEquiv1 dot_S1024x128_S128x128_S1024x128_1_0_0_1_n_n 128 rfl rfl).symm k) = ix2 n k := funext fun a => Fin.ext (by
    match a with
    | ⟨0, _⟩ => exact lhsW_0 _ _
    | ⟨1, _⟩ => exact (lhsW_1 _ _).trans hk)
  have er : dot_S1024x128_S128x128_S1024x128_1_0_0_1_n_n.rhsIdx (ix2 n g) ((ValueIdx.contrEquiv1 dot_S1024x128_S128x128_S1024x128_1_0_0_1_n_n 128 rfl rfl).symm k) = ix2 k g := funext fun a => Fin.ext (by
    match a with
    | ⟨0, _⟩ => exact (rhsW_0 _ _).trans hk
    | ⟨1, _⟩ => exact rhsW_1 _ _)
  rw [el, er]

/-- A column [1024, 1] broadcast along the features reads its row's entry. -/
theorem bcastCol_apply (v : FVec Ideal S1024x1 .f32) (n : Fin 1024) (f : Fin 128) :
    broadcastTo S1024x128 v broadcasts_S1024x1_S1024x128 (ix2 n f) = v (ix2 n (0 : Fin 1)) := by
  refine broadcastTo_apply v broadcasts_S1024x1_S1024x128 (ix2 n f) (ix2 n (0 : Fin 1)) fun ax => ?_
  match ax with
  | ⟨0, _⟩ => rfl
  | ⟨1, _⟩ => rfl

/-- The reciprocal square root of a row's degree, from the column of row sums. -/
def rs (d : FVec Ideal S1024x1 .f32) (n : Fin 1024) : EReal := Ideal.rsqrt (d (ix2 n (0 : Fin 1)) + 1)

/-- THE BODY'S RESULT at `(n, g)`, from the column of row sums `d`, the feature block `x`, the square copy `a` and the weights `w`. -/
theorem pay27_apply (d : FVec Ideal S1024x1 .f32) (x : FVec Ideal S1x1024x128 .f32) (a : FVec Ideal S1024x1024 .bf16)
    (w : FVec Ideal S128x128 .bf16) (n : Fin 1024) (g : Fin 128) :
    k0_pay27 (F := Ideal) d x a w (ix2 n g)
      = ∑ f : Fin 128, (rs d n * ((∑ m : Fin 1024, a (ix2 n m) * (rs d m * x (ix3 (0 : Fin 1) m f))) + rs d n * x (ix3 (0 : Fin 1) n f)))
          * w (ix2 f g) := by
  unfold k0_pay27
  refine (matmulW_apply _ _ n g).trans ?_
  refine Finset.sum_congr rfl fun f _ => ?_
  rw [shapeCast_self]
  congr 1
  have hb : ∀ (n : Fin 1024) (f : Fin 128),
      broadcastTo S1024x128 (rsqrt (addf d (broadcast S1024x1 (Scalar.ofBits (F := Ideal) .f32 0x3F800000#32)))) broadcasts_S1024x1_S1024x128 (ix2 n f) = rs d n := by
    intro n f
    rw [bcastCol_apply]
    show Ideal.rsqrt (d (ix2 n (0 : Fin 1)) + Ideal.ofBits .f32 0x3F800000#32) = _
    rw [ofBits_one]; rfl
  have hy : ∀ (m : Fin 1024) (f : Fin 128),
      mulf (broadcastTo S1024x128 (rsqrt (addf d (broadcast S1024x1 (Scalar.ofBits (F := Ideal) .f32 0x3F800000#32)))) broadcasts_S1024x1_S1024x128)
        (shapeCast S1024x128 x shapeCasts_S1x1024x128_S1024x128) (ix2 m f) = rs d m * x (ix3 (0 : Fin 1) m f) := by
    intro m f
    rw [mulf_apply, hb, shapeCast_1ab_ab_apply]
  rw [truncf_apply, mulf_apply, hb, addf_apply, hy, matmulA_apply]
  congr 2
  refine Finset.sum_congr rfl fun m _ => ?_
  rw [truncf_apply, hy]

/-- The stored block adds a unit leading axis. -/
theorem pay1_apply (v : FVec Ideal S1024x128 .f32) (n : Fin 1024) (g : Fin 128) :
    k0_pay1 (F := Ideal) v (ix3 (0 : Fin 1) n g) = v (ix2 n g) := by
  unfold k0_pay1
  exact shapeCast_ab_1ab_apply v shapeCasts_S1024x128_S1x1024x128 0 n g

end Cert.KernelIdeal.Payload

end
-- ==== Proof.Body.lean ====
/-
  What one run of the kernel body leaves in the output block, at an entry.

  The body fills two scratch buffers tile by tile — eight row tiles of 128 rows — and reads both back whole: the column
  of row sums is then ONE function of the adjacency block (entry `(n, 0)` is the sum of row `n`), and the square copy is
  the adjacency block itself. With these the body's arithmetic (Payload.lean) is the aggregation `aggK` of Algebra.lean
  over the block's own rows, contracted with the weights.
-/
import proofs.«170639_j77713138253972_2_alg».proof.Proof.Payload
import proofs.«170639_j77713138253972_2_alg».proof.Proof.Gen.KernelIdeal.Frame
import Idealize.ShloMosaic.Lib.Tactic

set_option maxRecDepth 16384

noncomputable section

namespace Cert.KernelIdeal.Body

open Cert.KernelIdeal Cert.KernelIdeal.Gen Cert.KernelIdeal.Payload Idealize.ShloMosaic Idealize.ShloMosaic.TcCoe
open Idealize.ShloMosaic.ValueIdx Idealize.ShloMosaic.Tactic Cert.Gcn

theorem hz3 : (![0, 0, 0] : Fin 3 → Nat) = fun _ => 0 := funext fun a => by fin_cases a <;> rfl
theorem hz2 : (![0, 0] : Fin 2 → Nat) = fun _ => 0 := funext fun a => by fin_cases a <;> rfl

/-- The column of row sums of an adjacency block. -/
def rowsums (x0 : FVec Ideal S1x1024x1024 .f32) : FVec Ideal S1024x1 .f32 :=
  fun y => ∑ j : Fin 1024, x0 (ix3 (0 : Fin 1) ⟨(y 0).val, (y 0).isLt⟩ j)

/-- The adjacency block without its unit axis. -/
def square (x0 : FVec Ideal S1x1024x1024 .f32) : FVec Ideal S1024x1024 .bf16 :=
  fun y => x0 (ix3 (0 : Fin 1) ⟨(y 0).val, (y 0).isLt⟩ ⟨(y 1).val, (y 1).isLt⟩)

/-- The body's arithmetic over a column that IS the row sums and a square that IS the block: the aggregation. -/
theorem pay27_agg (d : FVec Ideal S1024x1 .f32) (x : FVec Ideal S1x1024x128 .f32) (a : FVec Ideal S1024x1024 .bf16)
    (w : FVec Ideal S128x128 .bf16) (x0 : FVec Ideal S1x1024x1024 .f32)
    (hd : ∀ n : Fin 1024, d (ix2 n (0 : Fin 1)) = ∑ j : Fin 1024, x0 (ix3 (0 : Fin 1) n j))
    (ha : ∀ n m : Fin 1024, a (ix2 n m) = x0 (ix3 (0 : Fin 1) n m)) (n : Fin 1024) (g : Fin 128) :
    k0_pay27 (F := Ideal) d x a w (ix2 n g)
      = ∑ f : Fin 128, aggK (fun n m => x0 (ix3 (0 : Fin 1) n m)) (fun m f => x (ix3 (0 : Fin 1) m f)) n f * w (ix2 f g) := by
  rw [pay27_apply]
  have hr : ∀ n, rs d n = dinvK (fun n m => x0 (ix3 (0 : Fin 1) n m)) n := by
    intro n; unfold rs dinvK degK; rw [hd]
  refine Finset.sum_congr rfl fun f _ => ?_
  unfold aggK
  simp only [hr, ha]

/-- THE BODY'S OUTPUT BLOCK at `(0, n, g)`, from the adjacency block `x0`, the feature block `x1` and the weights `x2`. -/
theorem body_value (c : Dev nD) (i : grid0.Coords) (arg1 : Memref sig .tc .vmem S1x1024x1024 .f32) (harg1 : arg1.IsWhole) (arg2 : Memref sig .tc .vmem S1x1024x128 .f32) (harg2 : arg2.IsWhole) (arg3 : Memref sig .tc .vmem S128x128 .bf16) (harg3 : arg3.IsWhole) (arg4 : Memref sig .tc .vmem S1x1024x128 .f32) (harg4 : arg4.IsWhole) (arg5 : Memref sig .tc .vmem S1024x1024 .bf16) (harg5 : arg5.IsWhole) (arg6 : Memref sig .tc .vmem S1024x1 .f32) (harg6 : arg6.IsWhole)
    (x0 : Vec Ideal S1x1024x1024 .f32) (x1 : Vec Ideal S1x1024x128 .f32) (x2 : Vec Ideal S128x128 .bf16) (n : Fin 1024) (g : Fin 128) :
    out0_A_3 (F := Ideal) c i arg1 harg1 arg2 harg2 arg3 harg3 arg4 harg4 arg5 harg5 arg6 harg6 x0 x1 x2 (ix3 (0 : Fin 1) n g)
      = ∑ f : Fin 128, aggK (fun n m => x0 (ix3 (0 : Fin 1) n m)) (fun m f => x1 (ix3 (0 : Fin 1) m f)) n f * x2 (ix2 f g) := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero hz3]
  simp only [View.readAt_eq_ld, harg1.read_unread, harg2.read_unread, harg3.read_unread,
    View.ld_unit_zero (S := S1x1024x128) hz3, View.ld_unit_zero (S := S128x128) hz2]
  rw [View.readCov_eq_canon' arg6.view, View.readCov_eq_canon' arg5.view]
  refine (pay1_apply _ n g).trans ?_
  refine pay27_agg _ _ _ _ x0 (fun n => ?_) (fun n m => ?_) n g
  · refine (View.canon_apply_of_pieces (rowsums x0) _ (fun p hp => ?_) _
      (View.cover_of_tiledL (s := S1024x1) _ ![128, 1] (by sl_kernel_rfl) _)).trans ?_
    · simp only [List.mem_cons, List.mem_nil_iff, or_false] at hp
      rcases hp with rfl | rfl | rfl | rfl | rfl | rfl | rfl | rfl
      · intro x
        obtain ⟨p', q, rfl⟩ : ∃ (p' : Fin 128) (q : Fin 1), x = ix2 p' q := ⟨x 0, x 1, eq_ix2 x⟩
        refine (sums7_apply _ p' q).trans ?_
        unfold rowsums
        refine Finset.sum_congr rfl fun j _ => ?_
        refine congrArg x0 (funext fun a => Fin.ext ?_)
        match a with
        | ⟨0, _⟩ => rfl
        | ⟨1, _⟩ => rfl
        | ⟨2, _⟩ => show 0 + 1 * j.val = j.val; omega
      · intro x
        obtain ⟨p', q, rfl⟩ : ∃ (p' : Fin 128) (q : Fin 1), x = ix2 p' q := ⟨x 0, x 1, eq_ix2 x⟩
        refine (sums6_apply _ p' q).trans ?_
        unfold rowsums
        refine Finset.sum_congr rfl fun j _ => ?_
        refine congrArg x0 (funext fun a => Fin.ext ?_)
        match a with
        | ⟨0, _⟩ => rfl
        | ⟨1, _⟩ => rfl
        | ⟨2, _⟩ => show 0 + 1 * j.val = j.val; omega
      · intro x
        obtain ⟨p', q, rfl⟩ : ∃ (p' : Fin 128) (q : Fin 1), x = ix2 p' q := ⟨x 0, x 1, eq_ix2 x⟩
        refine (sums5_apply _ p' q).trans ?_
        unfold rowsums
        refine Finset.sum_congr rfl fun j _ => ?_
        refine congrArg x0 (funext fun a => Fin.ext ?_)
        match a with
        | ⟨0, _⟩ => rfl
        | ⟨1, _⟩ => rfl
        | ⟨2, _⟩ => show 0 + 1 * j.val = j.val; omega
      · intro x
        obtain ⟨p', q, rfl⟩ : ∃ (p' : Fin 128) (q : Fin 1), x = ix2 p' q := ⟨x 0, x 1, eq_ix2 x⟩
        refine (sums4_apply _ p' q).trans ?_
        unfold rowsums
        refine Finset.sum_congr rfl fun j _ => ?_
        refine congrArg x0 (funext fun a => Fin.ext ?_)
        match a with
        | ⟨0, _⟩ => rfl
        | ⟨1, _⟩ => rfl
        | ⟨2, _⟩ => show 0 + 1 * j.val = j.val; omega
      · intro x
        obtain ⟨p', q, rfl⟩ : ∃ (p' : Fin 128) (q : Fin 1), x = ix2 p' q := ⟨x 0, x 1, eq_ix2 x⟩
        refine (sums3_apply _ p' q).trans ?_
        unfold rowsums
        refine Finset.sum_congr rfl fun j _ => ?_
        refine congrArg x0 (funext fun a => Fin.ext ?_)
        match a with
        | ⟨0, _⟩ => rfl
        | ⟨1, _⟩ => rfl
        | ⟨2, _⟩ => show 0 + 1 * j.val = j.val; omega
      · intro x
        obtain ⟨p', q, rfl⟩ : ∃ (p' : Fin 128) (q : Fin 1), x = ix2 p' q := ⟨x 0, x 1, eq_ix2 x⟩
        refine (sums2_apply _ p' q).trans ?_
        unfold rowsums
        refine Finset.sum_congr rfl fun j _ => ?_
        refine congrArg x0 (funext fun a => Fin.ext ?_)
        match a with
        | ⟨0, _⟩ => rfl
        | ⟨1, _⟩ => rfl
        | ⟨2, _⟩ => show 0 + 1 * j.val = j.val; omega
      · intro x
        obtain ⟨p', q, rfl⟩ : ∃ (p' : Fin 128) (q : Fin 1), x = ix2 p' q := ⟨x 0, x 1, eq_ix2 x⟩
        refine (sums1_apply _ p' q).trans ?_
        unfold rowsums
        refine Finset.sum_congr rfl fun j _ => ?_
        refine congrArg x0 (funext fun a => Fin.ext ?_)
        match a with
        | ⟨0, _⟩ => rfl
        | ⟨1, _⟩ => rfl
        | ⟨2, _⟩ => show 0 + 1 * j.val = j.val; omega
      · intro x
        obtain ⟨p', q, rfl⟩ : ∃ (p' : Fin 128) (q : Fin 1), x = ix2 p' q := ⟨x 0, x 1, eq_ix2 x⟩
        refine (sums0_apply _ p' q).trans ?_
        unfold rowsums
        refine Finset.sum_congr rfl fun j _ => ?_
        refine congrArg x0 (funext fun a => Fin.ext ?_)
        match a with
        | ⟨0, _⟩ => rfl
        | ⟨1, _⟩ => rfl
        | ⟨2, _⟩ => show 0 + 1 * j.val = j.val; omega
    · unfold rowsums
      refine Finset.sum_congr rfl fun j _ => ?_
      refine congrArg x0 (funext fun a => Fin.ext ?_)
      match a with
      | ⟨0, _⟩ => rfl
      | ⟨1, _⟩ => show 0 + 1 * n.val = n.val; omega
      | ⟨2, _⟩ => rfl
  · refine (View.canon_apply_of_pieces (square x0) _ (fun p hp => ?_) _
      (View.cover_of_tiledL (s := S1024x1024) _ ![128, 1024] (by sl_kernel_rfl) _)).trans ?_
    · simp only [List.mem_cons, List.mem_nil_iff, or_false] at hp
      rcases hp with rfl | rfl | rfl | rfl | rfl | rfl | rfl | rfl
      · intro x
        obtain ⟨p', j, rfl⟩ : ∃ (p' : Fin 128) (j : Fin 1024), x = ix2 p' j := ⟨x 0, x 1, eq_ix2 x⟩
        refine (copy7_apply _ p' j).trans ?_
        unfold square
        refine congrArg x0 (funext fun a => Fin.ext ?_)
        match a with
        | ⟨0, _⟩ => rfl
        | ⟨1, _⟩ => rfl
        | ⟨2, _⟩ => rfl
      · intro x
        obtain ⟨p', j, rfl⟩ : ∃ (p' : Fin 128) (j : Fin 1024), x = ix2 p' j := ⟨x 0, x 1, eq_ix2 x⟩
        refine (copy6_apply _ p' j).trans ?_
        unfold square
        refine congrArg x0 (funext fun a => Fin.ext ?_)
        match a with
        | ⟨0, _⟩ => rfl
        | ⟨1, _⟩ => rfl
        | ⟨2, _⟩ => rfl
      · intro x
        obtain ⟨p', j, rfl⟩ : ∃ (p' : Fin 128) (j : Fin 1024), x = ix2 p' j := ⟨x 0, x 1, eq_ix2 x⟩
        refine (copy5_apply _ p' j).trans ?_
        unfold square
        refine congrArg x0 (funext fun a => Fin.ext ?_)
        match a with
        | ⟨0, _⟩ => rfl
        | ⟨1, _⟩ => rfl
        | ⟨2, _⟩ => rfl
      · intro x
        obtain ⟨p', j, rfl⟩ : ∃ (p' : Fin 128) (j : Fin 1024), x = ix2 p' j := ⟨x 0, x 1, eq_ix2 x⟩
        refine (copy4_apply _ p' j).trans ?_
        unfold square
        refine congrArg x0 (funext fun a => Fin.ext ?_)
        match a with
        | ⟨0, _⟩ => rfl
        | ⟨1, _⟩ => rfl
        | ⟨2, _⟩ => rfl
      · intro x
        obtain ⟨p', j, rfl⟩ : ∃ (p' : Fin 128) (j : Fin 1024), x = ix2 p' j := ⟨x 0, x 1, eq_ix2 x⟩
        refine (copy3_apply _ p' j).trans ?_
        unfold square
        refine congrArg x0 (funext fun a => Fin.ext ?_)
        match a with
        | ⟨0, _⟩ => rfl
        | ⟨1, _⟩ => rfl
        | ⟨2, _⟩ => rfl
      · intro x
        obtain ⟨p', j, rfl⟩ : ∃ (p' : Fin 128) (j : Fin 1024), x = ix2 p' j := ⟨x 0, x 1, eq_ix2 x⟩
        refine (copy2_apply _ p' j).trans ?_
        unfold square
        refine congrArg x0 (funext fun a => Fin.ext ?_)
        match a with
        | ⟨0, _⟩ => rfl
        | ⟨1, _⟩ => rfl
        | ⟨2, _⟩ => rfl
      · intro x
        obtain ⟨p', j, rfl⟩ : ∃ (p' : Fin 128) (j : Fin 1024), x = ix2 p' j := ⟨x 0, x 1, eq_ix2 x⟩
        refine (copy1_apply _ p' j).trans ?_
        unfold square
        refine congrArg x0 (funext fun a => Fin.ext ?_)
        match a with
        | ⟨0, _⟩ => rfl
        | ⟨1, _⟩ => rfl
        | ⟨2, _⟩ => rfl
      · intro x
        obtain ⟨p', j, rfl⟩ : ∃ (p' : Fin 128) (j : Fin 1024), x = ix2 p' j := ⟨x 0, x 1, eq_ix2 x⟩
        refine (copy0_apply _ p' j).trans ?_
        unfold square
        refine congrArg x0 (funext fun a => Fin.ext ?_)
        match a with
        | ⟨0, _⟩ => rfl
        | ⟨1, _⟩ => rfl
        | ⟨2, _⟩ => rfl
    · unfold square
      refine congrArg x0 (funext fun a => Fin.ext ?_)
      match a with
      | ⟨0, _⟩ => rfl
      | ⟨1, _⟩ => show 0 + 1 * n.val = n.val; omega
      | ⟨2, _⟩ => show 0 + 1 * m.val = m.val; omega

end Cert.KernelIdeal.Body

end
-- ==== Proof.Blocks.lean ====
/-
  From one grid point's output block to the whole result array.

  Grid point `t` works on graph `t`: its adjacency block is `A[t]`, its feature block `X[t]`, its weights the whole
  of `W` (converted to the narrower format before the launch: the identity here), and it writes back block `t` of the
  result. So what it writes back is block `t` of the layer computed the kernel's way, the sixteen blocks cover the
  result array, and the array ends holding that layer.
-/
import proofs.«170639_j77713138253972_2_alg».proof.Proof.Body
import proofs.«170639_j77713138253972_2_alg».proof.Proof.Gen.KernelIdeal.Value
import Idealize.ShloMosaic.Lib.StableHlo.Run

set_option maxRecDepth 16384

noncomputable section

namespace Cert.KernelIdeal.RefValue

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.Gcn
open Idealize.ShloMosaic.Pipeline (Dat)

variable (m : (ℓ : Loc nD τ sig) → Buf (Elt Ideal) ℓ) (ρ : Dev nD → PrngReg)

/-- The layer computed the kernel's way, as an array. -/
def layerK (X : FVec Ideal S16x1024x128 .f32) (A : FVec Ideal S16x1024x1024 .f32) (W : FVec Ideal S128x128 .f32) :
    FVec Ideal S16x1024x128 .f32 :=
  fun i => outK X A W ⟨(i 0).val, (i 0).isLt⟩ ⟨(i 1).val, (i 1).isLt⟩ ⟨(i 2).val, (i 2).isLt⟩

/-- One point's output block over blocks that ARE graph `b`'s slices is graph `b`'s rows of the layer. -/
theorem block_value (X : FVec Ideal S16x1024x128 .f32) (A : FVec Ideal S16x1024x1024 .f32) (W : FVec Ideal S128x128 .f32) (b : Fin 16)
    (c : Dev nD) (i : grid0.Coords) (arg1 : Memref sig .tc .vmem S1x1024x1024 .f32) (harg1 : arg1.IsWhole) (arg2 : Memref sig .tc .vmem S1x1024x128 .f32) (harg2 : arg2.IsWhole) (arg3 : Memref sig .tc .vmem S128x128 .bf16) (harg3 : arg3.IsWhole) (arg4 : Memref sig .tc .vmem S1x1024x128 .f32) (harg4 : arg4.IsWhole) (arg5 : Memref sig .tc .vmem S1024x1024 .bf16) (harg5 : arg5.IsWhole) (arg6 : Memref sig .tc .vmem S1024x1 .f32) (harg6 : arg6.IsWhole)
    (x0 : Vec Ideal S1x1024x1024 .f32) (x1 : Vec Ideal S1x1024x128 .f32) (x2 : Vec Ideal S128x128 .bf16)
    (h0 : ∀ n m : Fin 1024, x0 (ix3 (0 : Fin 1) n m) = A (ix3 b n m))
    (h1 : ∀ (n : Fin 1024) (f : Fin 128), x1 (ix3 (0 : Fin 1) n f) = X (ix3 b n f))
    (h2 : ∀ f g : Fin 128, x2 (ix2 f g) = W (ix2 f g)) (n : Fin 1024) (g : Fin 128) :
    out0_A_3 (F := Ideal) c i arg1 harg1 arg2 harg2 arg3 harg3 arg4 harg4 arg5 harg5 arg6 harg6 x0 x1 x2 (ix3 (0 : Fin 1) n g)
      = outK X A W b n g := by
  rw [body_value]
  unfold outK
  have e0 : (fun n m : Fin 1024 => x0 (ix3 (0 : Fin 1) n m)) = adj A b := funext fun n => funext fun m => h0 n m
  have e1 : (fun (m : Fin 1024) (f : Fin 128) => x1 (ix3 (0 : Fin 1) m f)) = feat X b := funext fun n => funext fun f => h1 n f
  rw [e0, e1]
  exact Finset.sum_congr rfl fun f _ => by rw [h2]

/-- The weights as the region finds them: the host's change of format of `W`. -/
theorem V_main_v0 (c : Dev nD) :
    (V m c main_v0 : S128x128.Idx → EReal) = truncf (F := Ideal) .bf16 (m ((c : Thread nD τ).loc main_arg2)) bitsLt_bf16_f32 := by
  dsimp only [Gen.V, Gen.hostOps0]
  after_results

/-- The printed index maps over the grid: point `t` takes graph `t` of `A`, `X` and the result, and all of `W`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is block `t` of the layer computed the kernel's way. -/
theorem flushed_eq (c : Dev nD) (t : Fin cfg0.N) :
    (dats m 0 c).flushed 3 t = ((cfg0.win 3).blk t).view.read (Elt Ideal)
      (layerK (m ((c : Thread nD τ).loc main_arg0)) (m ((c : Thread nD τ).loc main_arg1)) (m ((c : Thread nD τ).loc main_arg2))) := by
  rw [Value.flushed3_A]
  obtain ⟨a00, a01, a02, a10, a11, a12, a20, a21, a30, a31, a32⟩ := idx_facts t
  have ht : t.val < 16 := Nat.lt_of_lt_of_eq t.isLt N_0
  funext y
  obtain ⟨u, n, g, rfl⟩ : ∃ (u : Fin 1) (n : Fin 1024) (g : Fin 128), y = ix3 u n g := ⟨y 0, y 1, y 2, eq_ix3 y⟩
  obtain rfl : u = 0 := Fin.ext (by omega)
  refine (block_value (m ((c : Thread nD τ).loc main_arg0)) (m ((c : Thread nD τ).loc main_arg1)) (m ((c : Thread nD τ).loc main_arg2))
    ⟨t.val, ht⟩ c _ _ _ _ _ _ _ _ _ _ _ _ _ _ _ _ ?_ ?_ ?_ n g).trans ?_
  · intro n k
    unfold iblk
    rw [View.read_apply]
    show V m c main_arg1 _ = m (c.tc.loc main_arg1) _
    rw [V_main_arg1]
    congr 1
    funext a
    apply Fin.ext
    match a with
    | ⟨0, _⟩ => show win0_0.index t (0 : Fin 3) * 1 + 1 * 0 = t.val; omega
    | ⟨1, _⟩ => show win0_0.index t (1 : Fin 3) * 1024 + 1 * n.val = n.val; omega
    | ⟨2, _⟩ => show win0_0.index t (2 : Fin 3) * 1024 + 1 * k.val = k.val; omega
  · intro n f
    unfold iblk
    rw [View.read_apply]
    show V m c main_arg0 _ = m (c.tc.loc main_arg0) _
    rw [V_main_arg0]
    congr 1
    funext a
    apply Fin.ext
    match a with
    | ⟨0, _⟩ => show win0_1.index t (0 : Fin 3) * 1 + 1 * 0 = t.val; omega
    | ⟨1, _⟩ => show win0_1.index t (1 : Fin 3) * 1024 + 1 * n.val = n.val; omega
    | ⟨2, _⟩ => show win0_1.index t (2 : Fin 3) * 128 + 1 * f.val = f.val; omega
  · intro f g
    unfold iblk
    rw [View.read_apply]
    show V m c main_v0 _ = m (c.tc.loc main_arg2) _
    rw [V_main_v0]
    show m (c.tc.loc main_arg2) _ = m (c.tc.loc main_arg2) _
    congr 1
    funext a
    apply Fin.ext
    match a with
    | ⟨0, _⟩ => show win0_2.index t (0 : Fin 2) * 128 + 1 * f.val = f.val; omega
    | ⟨1, _⟩ => show win0_2.index t (1 : Fin 2) * 128 + 1 * g.val = g.val; omega
  · rw [View.read_apply]
    unfold layerK
    congr 1
    · apply Fin.ext; show t.val = win0_3.index t (0 : Fin 3) * 1 + 1 * 0; omega
    · apply Fin.ext; show n.val = win0_3.index t (1 : Fin 3) * 1024 + 1 * n.val; omega
    · apply Fin.ext; show g.val = win0_3.index t (2 : Fin 3) * 128 + 1 * g.val; omega

/-- An index of the result is in point `t`'s block iff each coordinate is in the block's range on its axis. -/
theorem mem_blk (t : Fin cfg0.N) (i : S16x1024x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v1).slice (win0_3.rect t)).set ↔ _
  rw [View.set_slice_whole, Rect.mem_set_unit]
  exact Iff.rfl

/-- Every entry of the result is in the block of the point its graph index names. -/
theorem cover (i : S16x1024x128.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 128 := (i 2).isLt
  have hN : cfg0.N = 16 := N_0
  refine ⟨⟨(i 0).val, by rw [hN]; exact hi0⟩, flush0_3 _, ?_⟩
  obtain ⟨-, -, -, -, -, -, -, -, a30, a31, a32⟩ := idx_facts ⟨(i 0).val, by rw [hN]; exact hi0⟩
  rw [mem_blk]
  intro a
  match a with
  | ⟨0, _⟩ => show win0_3.index _ (0 : Fin 3) * 1 ≤ (i 0).val ∧ (i 0).val < win0_3.index _ (0 : Fin 3) * 1 + 1; rw [a30]; dsimp only; omega
  | ⟨1, _⟩ => show win0_3.index _ (1 : Fin 3) * 1024 ≤ (i 1).val ∧ (i 1).val < win0_3.index _ (1 : Fin 3) * 1024 + 1024; rw [a31]; omega
  | ⟨2, _⟩ => show win0_3.index _ (2 : Fin 3) * 128 ≤ (i 2).val ∧ (i 2).val < win0_3.index _ (2 : Fin 3) * 128 + 128; rw [a32]; omega

/-- THE RESULT ARRAY after the run: the layer computed the kernel's way. -/
theorem final (c : Dev nD) : (dats m 0 c).arrAt 3 cfg0.N
    = layerK (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array at that layer, the arguments unchanged. -/
theorem run : θ_run defs (onTc (τ := τ) (main (F := Ideal))) ⟨m, fun _ => 0, ρ⟩ fun r => ∀ c : Dev nD,
      r.2.mem ((c : Thread nD τ).loc main_v1)
        = layerK (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RefValue

end
-- ==== Proof.lean ====
/-
  One graph-convolution layer, `out = (D^(-1/2) (A + I) D^(-1/2) X) W` with `D` the degrees of `A + I`, over sixteen graphs
  of 1024 nodes: a fused kernel against the plain formula.

  The kernel, per graph, sums the rows of `A`, adds one, takes the reciprocal square root `r`, and computes
  `(r * (A (r * X) + r * X)) W` without forming the normalized matrix; the reference forms `(A + I) * s * sᵀ` with
  `s = 1 / sqrt (rowsum (A + I))` and contracts it with `X` and then `W`. Read as extended reals — changes of float
  format are the identity, each matrix product and each row sum an exact sum — the two results are one array whenever
  the entries of `A` and `X` are finite and every degree is positive: the identity's row sum is `1`, `rsqrt d` and
  `1 / sqrt d` are both `(√d)⁻¹` for `d > 0`, and the factor `r n` moves across the sum over neighbours
  (Proof/Algebra.lean). The precondition says exactly that (Proof/PreRead.lean): the inputs are finite and the
  reference's own degree `sum (A + I, axis = -1)` is positive, the domain of its `1 / sqrt`. Outside it the two
  programs do differ (a negative degree gives `rsqrt = -∞` on one side and `1 / sqrt = 0` on the other).

  The modules: Algebra (the law, no program), Spec (the layer as a function of the arrays, both arrangements),
  RefRead (the reference's result is the layer), PreRead (what the precondition gives), Payload (the kernel body's
  arithmetic at an entry), Body (one run of the body: its scratch buffers read back), Blocks (from the sixteen
  written-back blocks to the result array), and the claims below.
-/
import proofs.«170639_j77713138253972_2_alg».proof.Defs
import proofs.«170639_j77713138253972_2_alg».proof.Proof.Gen.Kernel
import proofs.«170639_j77713138253972_2_alg».proof.Proof.Gen.Kernel.Skeleton
import proofs.«170639_j77713138253972_2_alg».proof.Proof.Gen.Kernel.Launch
import proofs.«170639_j77713138253972_2_alg».proof.Proof.Gen.Kernel.Points
import proofs.«170639_j77713138253972_2_alg».proof.Proof.Gen.Kernel.Frame
import proofs.«170639_j77713138253972_2_alg».proof.Proof.Gen.KernelIdeal
import proofs.«170639_j77713138253972_2_alg».proof.Proof.Gen.KernelIdeal.Skeleton
import proofs.«170639_j77713138253972_2_alg».proof.Proof.Gen.KernelIdeal.Launch
import proofs.«170639_j77713138253972_2_alg».proof.Proof.Gen.KernelIdeal.Points
import proofs.«170639_j77713138253972_2_alg».proof.Proof.Gen.KernelIdeal.Frame
import proofs.«170639_j77713138253972_2_alg».proof.Proof.Gen.KernelIdeal.Value
import proofs.«170639_j77713138253972_2_alg».proof.Proof.Gen.ReferenceIdeal
import proofs.«170639_j77713138253972_2_alg».proof.Proof.Gen.ReferenceIdeal.Run
import proofs.«170639_j77713138253972_2_alg».proof.Proof.Gen.ReferenceIdeal.Read
import proofs.«170639_j77713138253972_2_alg».proof.Proof.Gen.Pre_finite_inputs
import proofs.«170639_j77713138253972_2_alg».proof.Proof.PreRead
import proofs.«170639_j77713138253972_2_alg».proof.Proof.Blocks
import Idealize.ShloMosaic.Adequacy
import Idealize.ShloMosaic.Init

noncomputable section

namespace Cert.Proof

open Idealize.ShloMosaic Idealize.ShloMosaic.TcCoe Idealize.SL.Sem Cert.Gcn

/-- The kernel as printed runs, nothing faulting, and leaves its arguments as they were. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of Proof/Spec.lean in their result arrays: the reference by reading its operations
    one at a time, the kernel block by block and then through the law, which the precondition licenses. -/
theorem algebraic : Cert.algebraic_KernelIdeal_ReferenceIdeal := by
  intro m ρ m' ρ' hpre hagree
  refine ⟨fun c => layer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.RefValue.run m ρ)
    obtain ⟨hX, hA, hdeg⟩ := Cert.Pre_finite_inputs.PreValue.decode _ _ _ (hpre c)
    funext i
    exact outK_eq_outR _ _ _ hX hA hdeg _ _ _
  · refine (θ_run Cert.ReferenceIdeal.defs _ _).mono (fun r h c => ⟨?_, (h c).2⟩)
      (Cert.ReferenceIdeal.Value.run (F := Ideal) m' ρ')
    rw [(h c).1, Cert.ReferenceIdeal.Read.val_main_v20_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
